-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x4096x256 : Shape := ⟨3, ![32, 4096, 256]⟩
abbrev S32x256x256 : Shape := ⟨3, ![32, 256, 256]⟩
abbrev S_ : Shape := ⟨0, ![]⟩

class Facts : Prop where
  bcast_S_S32x4096x256 : S_.BroadcastsInDim S32x4096x256 (![] : Fin 0 → Fin S32x4096x256.rank)
  reducesTo_S32x4096x256_S_d0_1_2 : S32x4096x256.ReducesTo [0, 1, 2] S_
  h_S_ : 0 < S_.numel
  bcast_S_S32x256x256 : S_.BroadcastsInDim S32x256x256 (![] : Fin 0 → Fin S32x256x256.rank)
  reducesTo_S32x256x256_S_d0_1_2 : S32x256x256.ReducesTo [0, 1, 2] S_

variable [Facts]

def fn_part1 {F : FTy → Type} [FloatOps F] (main_arg4 : FVec F S32x256x256 .f32) (main_v13 : IVec S_ 1) (main_v16 : IVec S32x256x256 1) : IVec S_ 1 :=
  let main_c_5 : IVec S_ 1 := constantI S_ 1 1#1
  let main_v17 : IVec S_ 1 := (fun x v => Host.reduce IntOp.andi x v reducesTo_S32x256x256_S_d0_1_2 h_S_) main_v16 main_c_5
  let main_v18 : IVec S_ 1 := andi main_v13 main_v17
  let main_v19 : FVec F S32x256x256 .f32 := Host.absf main_arg4
  let main_cst_6 : FVec F S_ .f32 := constant S_ .f32 0x7F800000#32
  let main_v20 : FVec F S32x256x256 .f32 := broadcastInDim S32x256x256 ![] bcast_S_S32x256x256 main_cst_6
  let main_v21 : IVec S32x256x256 1 := cmpf .olt main_v19 main_v20
  let main_c_7 : IVec S_ 1 := constantI S_ 1 1#1
  let main_v22 : IVec S_ 1 := (fun x v => Host.reduce IntOp.andi x v reducesTo_S32x256x256_S_d0_1_2 h_S_) main_v21 main_c_7
  let main_v23 : IVec S_ 1 := andi main_v18 main_v22
  main_v23

def fn {F : FTy → Type} [FloatOps F] (main_arg0 : FVec F S32x4096x256 .f32) (main_arg1 : FVec F S32x4096x256 .f32) (main_arg2 : FVec F S32x256x256 .f32) (main_arg3 : FVec F S32x256x256 .f32) (main_arg4 : FVec F S32x256x256 .f32) : IVec S_ 1 :=
  let main_v0 : FVec F S32x4096x256 .f32 := Host.absf main_arg0
  let main_cst : FVec F S_ .f32 := constant S_ .f32 0x7F800000#32
  let main_v1 : FVec F S32x4096x256 .f32 := broadcastInDim S32x4096x256 ![] bcast_S_S32x4096x256 main_cst
  let main_v2 : IVec S32x4096x256 1 := cmpf .olt main_v0 main_v1
  let main_c : IVec S_ 1 := constantI S_ 1 1#1
  let main_v3 : IVec S_ 1 := (fun x v => Host.reduce IntOp.andi x v reducesTo_S32x4096x256_S_d0_1_2 h_S_) main_v2 main_c
  let main_v4 : FVec F S32x4096x256 .f32 := Host.absf main_arg1
  let main_cst_0 : FVec F S_ .f32 := constant S_ .f32 0x7F800000#32
  let main_v5 : FVec F S32x4096x256 .f32 := broadcastInDim S32x4096x256 ![] bcast_S_S32x4096x256 main_cst_0
  let main_v6 : IVec S32x4096x256 1 := cmpf .olt main_v4 main_v5
  let main_c_1 : IVec S_ 1 := constantI S_ 1 1#1
  let main_v7 : IVec S_ 1 := (fun x v => Host.reduce IntOp.andi x v reducesTo_S32x4096x256_S_d0_1_2 h_S_) main_v6 main_c_1
  let main_v8 : IVec S_ 1 := andi main_v3 main_v7
  let main_v9 : FVec F S32x256x256 .f32 := Host.absf main_arg2
  let main_cst_2 : FVec F S_ .f32 := constant S_ .f32 0x7F800000#32
  let main_v10 : FVec F S32x256x256 .f32 := broadcastInDim S32x256x256 ![] bcast_S_S32x256x256 main_cst_2
  let main_v11 : IVec S32x256x256 1 := cmpf .olt main_v9 main_v10
  let main_c_3 : IVec S_ 1 := constantI S_ 1 1#1
  let main_v12 : IVec S_ 1 := (fun x v => Host.reduce IntOp.andi x v reducesTo_S32x256x256_S_d0_1_2 h_S_) main_v11 main_c_3
  let main_v13 : IVec S_ 1 := andi main_v8 main_v12
  let main_v14 : FVec F S32x256x256 .f32 := Host.absf main_arg3
  let main_cst_4 : FVec F S_ .f32 := constant S_ .f32 0x7F800000#32
  let main_v15 : FVec F S32x256x256 .f32 := broadcastInDim S32x256x256 ![] bcast_S_S32x256x256 main_cst_4
  let main_v16 : IVec S32x256x256 1 := cmpf .olt main_v14 main_v15
  fn_part1 (F := F) main_arg4 main_v13 main_v16
-- ==== Kernel.lean ====
abbrev S32x4096x256 : Shape := ⟨3, ![32, 4096, 256]⟩
abbrev S32x256x256 : Shape := ⟨3, ![32, 256, 256]⟩
abbrev S32x256x512 : Shape := ⟨3, ![32, 256, 512]⟩
abbrev S32x64x256 : Shape := ⟨3, ![32, 64, 256]⟩
abbrev S32x256x64 : Shape := ⟨3, ![32, 256, 64]⟩
abbrev S64x32x256 : Shape := ⟨3, ![64, 32, 256]⟩
abbrev S32x512x64 : Shape := ⟨3, ![32, 512, 64]⟩
abbrev S64x32x512 : Shape := ⟨3, ![64, 32, 512]⟩
abbrev S64x32x32 : Shape := ⟨3, ![64, 32, 32]⟩
abbrev S64x32 : Shape := ⟨2, ![64, 32]⟩
abbrev S64x32x1 : Shape := ⟨3, ![64, 32, 1]⟩
abbrev S64x256x32 : Shape := ⟨3, ![64, 256, 32]⟩

abbrev nBuf : Space → Nat
  | .hbm => 9
  | .vmem => 8
  | .smem => 0
  | _ => 0

abbrev bufTy : (tb : Table) → Fin (tcTables nBuf tb) → BufTy
  | .hbm, ⟨0, _⟩ => ⟨S32x4096x256, .f32⟩
  | .hbm, ⟨1, _⟩ => ⟨S32x4096x256, .f32⟩
  | .hbm, ⟨2, _⟩ => ⟨S32x256x256, .f32⟩
  | .hbm, ⟨3, _⟩ => ⟨S32x256x256, .f32⟩
  | .hbm, ⟨4, _⟩ => ⟨S32x256x256, .f32⟩
  | .hbm, ⟨5, _⟩ => ⟨S32x256x256, .bf16⟩
  | .hbm, ⟨6, _⟩ => ⟨S32x256x512, .f32⟩
  | .hbm, ⟨7, _⟩ => ⟨S32x256x512, .bf16⟩
  | .hbm, ⟨8, _⟩ => ⟨S32x4096x256, .f32⟩
  | .local _ .vmem, ⟨0, _⟩ => ⟨S32x64x256, .f32⟩
  | .local _ .vmem, ⟨1, _⟩ => ⟨S32x64x256, .f32⟩
  | .local _ .vmem, ⟨2, _⟩ => ⟨S32x64x256, .f32⟩
  | .local _ .vmem, ⟨3, _⟩ => ⟨S32x64x256, .f32⟩
  | .local _ .vmem, ⟨4, _⟩ => ⟨S32x256x256, .bf16⟩
  | .local _ .vmem, ⟨5, _⟩ => ⟨S32x256x512, .bf16⟩
  | .local _ .vmem, ⟨6, _⟩ => ⟨S32x64x256, .f32⟩
  | .local _ .vmem, ⟨7, _⟩ => ⟨S32x64x256, .f32⟩
  | _, _ => ⟨S32x4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S32x64x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S32x64x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S32x256x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S32x256x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S32x64x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  bitsLt_bf16_f32 : FTy.bits .bf16 < FTy.bits .f32
  concatenates_S32x256x256_S32x256x256_S32x256x512_d2 : Shape.Concatenates [S32x256x256, S32x256x256] S32x256x512 2
  inb_S32x64x256_S32x64x256_0_0_0 : ∀ a, (![0, 0, 0] : Fin 3 → Nat) a + S32x64x256.size a ≤ S32x64x256.size a
  h_S32x64x256 : 0 < S32x64x256.numel
  inb_S32x256x256_S32x256x256_0_0_0 : ∀ a, (![0, 0, 0] : Fin 3 → Nat) a + S32x256x256.size a ≤ S32x256x256.size a
  h_S32x256x256 : 0 < S32x256x256.numel
  shapeCasts_S32x256x256_S32x256x256 : S32x256x256.ShapeCasts S32x256x256
  inb_S32x256x512_S32x256x512_0_0_0 : ∀ a, (![0, 0, 0] : Fin 3 → Nat) a + S32x256x512.size a ≤ S32x256x512.size a
  h_S32x256x512 : 0 < S32x256x512.numel
  shapeCasts_S32x256x512_S32x256x512 : S32x256x512.ShapeCasts S32x256x512
  transposes_S32x256x64_p2_0_1_S64x32x256 : S32x256x64.Transposes [2, 0, 1] S64x32x256
  transposes_S32x512x64_p2_0_1_S64x32x512 : S32x512x64.Transposes [2, 0, 1] S64x32x512
  slices_S64x32x512_o0_0_0_S64x32x256 : S64x32x512.Slices ![0, 0, 0] S64x32x256
  slices_S64x32x512_o0_0_256_S64x32x256 : S64x32x512.Slices ![0, 0, 256] S64x32x256
  reduces_S64x32x32_S64x32 : S64x32x32.Reduces [2] S64x32
  shapeCasts_S64x32_S64x32x1 : S64x32.ShapeCasts S64x32x1
  broadcasts_S64x32x1_S64x32x32 : S64x32x1.Broadcasts S64x32x32
  transposes_S64x256x32_p2_0_1_S32x64x256 : S64x256x32.Transposes [2, 0, 1] S32x64x256
  dot_S32x256x256_S32x64x256_S32x256x64_1_2_2_1_0_0_wf : DotDims.WF S32x256x256 S32x64x256 S32x256x64 [1] [2] [2] [1] [0] [0]
  dot_S32x256x512_S32x64x256_S32x512x64_1_2_2_1_0_0_wf : DotDims.WF S32x256x512 S32x64x256 S32x512x64 [1] [2] [2] [1] [0] [0]
  dot_S64x32x256_S64x32x256_S64x32x32_2_2_1_1_0_0_wf : DotDims.WF S64x32x256 S64x32x256 S64x32x32 [2] [2] [1] [1] [0] [0]
  dot_S64x32x256_S64x32x32_S64x256x32_1_2_2_1_0_0_wf : DotDims.WF S64x32x256 S64x32x32 S64x256x32 [1] [2] [2] [1] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S32x64x256.size a ≤ S32x4096x256.size a
  hwx0_0 : ∀ i : grid0.Coords, EltTy.bits .f32 = 32 ∨ (Rect.block (s := S32x4096x256) S32x64x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S32x64x256.size a ≤ S32x4096x256.size a
  hwx0_1 : ∀ i : grid0.Coords, EltTy.bits .f32 = 32 ∨ (Rect.block (s := S32x4096x256) S32x64x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S32x256x256.size a ≤ S32x256x256.size a
  hwx0_2 : ∀ i : grid0.Coords, EltTy.bits .bf16 = 32 ∨ (Rect.block (s := S32x256x256) S32x256x256.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S32x256x512.size a ≤ S32x256x512.size a
  hwx0_3 : ∀ i : grid0.Coords, EltTy.bits .bf16 = 32 ∨ (Rect.block (s := S32x256x512) S32x256x512.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S32x64x256.size a ≤ S32x4096x256.size a
  hwx0_4 : ∀ i : grid0.Coords, EltTy.bits .f32 = 32 ∨ (Rect.block (s := S32x4096x256) S32x64x256.size (cc0_transform_4 i) (hinb0_4 i)).WholeWords (EltTy.packing .f32)

variable [Facts₀]

def dot_S32x256x256_S32x64x256_S32x256x64_1_2_2_1_0_0 : DotDims S32x256x256 S32x64x256 S32x256x64 where
  lhsContracting := [1]
  rhsContracting := [2]
  lhsNonContracting := [2]
  rhsNonContracting := [1]
  lhsBatch := [0]
  rhsBatch := [0]
  wf := dot_S32x256x256_S32x64x256_S32x256x64_1_2_2_1_0_0_wf
def dot_S32x256x512_S32x64x256_S32x512x64_1_2_2_1_0_0 : DotDims S32x256x512 S32x64x256 S32x512x64 where
  lhsContracting := [1]
  rhsContracting := [2]
  lhsNonContracting := [2]
  rhsNonContracting := [1]
  lhsBatch := [0]
  rhsBatch := [0]
  wf := dot_S32x256x512_S32x64x256_S32x512x64_1_2_2_1_0_0_wf
def dot_S64x32x256_S64x32x256_S64x32x32_2_2_1_1_0_0 : DotDims S64x32x256 S64x32x256 S64x32x32 where
  lhsContracting := [2]
  rhsContracting := [2]
  lhsNonContracting := [1]
  rhsNonContracting := [1]
  lhsBatch := [0]
  rhsBatch := [0]
  wf := dot_S64x32x256_S64x32x256_S64x32x32_2_2_1_1_0_0_wf
def dot_S64x32x256_S64x32x32_S64x256x32_1_2_2_1_0_0 : DotDims S64x32x256 S64x32x32 S64x256x32 where
  lhsContracting := [1]
  rhsContracting := [2]
  lhsNonContracting := [2]
  rhsNonContracting := [1]
  lhsBatch := [0]
  rhsBatch := [0]
  wf := dot_S64x32x256_S64x32x32_S64x256x32_1_2_2_1_0_0_wf

abbrev win0_0 : Pipeline.Window sig grid0 :=
  Pipeline.Window.ofSpec (Memref.whole main_arg0) S32x64x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S32x64x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S32x256x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S32x256x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S32x64x256.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S32x4096x256 : Shape := ⟨3, ![32, 4096, 256]⟩
abbrev S32x256x256 : Shape := ⟨3, ![32, 256, 256]⟩
abbrev S_ : Shape := ⟨0, ![]⟩
abbrev S32x256x4096 : Shape := ⟨3, ![32, 256, 4096]⟩
abbrev S4096x32x256 : Shape := ⟨3, ![4096, 32, 256]⟩
abbrev S4096x32x32 : Shape := ⟨3, ![4096, 32, 32]⟩
abbrev S4096x32 : Shape := ⟨2, ![4096, 32]⟩
abbrev S4096x32x1 : Shape := ⟨3, ![4096, 32, 1]⟩
abbrev S4096x256x32 : Shape := ⟨3, ![4096, 256, 32]⟩

abbrev nBuf : Space → Nat
  | .hbm => 32
  | .vmem => 0
  | .smem => 0
  | _ => 0

abbrev bufTy : (tb : Table) → Fin (tcTables nBuf tb) → BufTy
  | .hbm, ⟨0, _⟩ => ⟨S32x4096x256, .f32⟩
  | .hbm, ⟨1, _⟩ => ⟨S32x4096x256, .f32⟩
  | .hbm, ⟨2, _⟩ => ⟨S32x256x256, .f32⟩
  | .hbm, ⟨3, _⟩ => ⟨S32x256x256, .f32⟩
  | .hbm, ⟨4, _⟩ => ⟨S32x256x256, .f32⟩
  | .hbm, ⟨5, _⟩ => ⟨S_, .f32⟩
  | .hbm, ⟨6, _⟩ => ⟨S_, .f32⟩
  | .hbm, ⟨7, _⟩ => ⟨S32x256x4096, .f32⟩
  | .hbm, ⟨8, _⟩ => ⟨S4096x32x256, .f32⟩
  | .hbm, ⟨9, _⟩ => ⟨S32x256x4096, .f32⟩
  | .hbm, ⟨10, _⟩ => ⟨S4096x32x256, .f32⟩
  | .hbm, ⟨11, _⟩ => ⟨S32x256x4096, .f32⟩
  | .hbm, ⟨12, _⟩ => ⟨S4096x32x256, .f32⟩
  | .hbm, ⟨13, _⟩ => ⟨S4096x32x32, .f32⟩
  | .hbm, ⟨14, _⟩ => ⟨S4096x32x32, .f32⟩
  | .hbm, ⟨15, _⟩ => ⟨S4096x32x32, .f32⟩
  | .hbm, ⟨16, _⟩ => ⟨S_, .f32⟩
  | .hbm, ⟨17, _⟩ => ⟨S4096x32, .f32⟩
  | .hbm, ⟨18, _⟩ => ⟨S_, .f32⟩
  | .hbm, ⟨19, _⟩ => ⟨S4096x32, .f32⟩
  | .hbm, ⟨20, _⟩ => ⟨S4096x32, .f32⟩
  | .hbm, ⟨21, _⟩ => ⟨S4096x32x1, .f32⟩
  | .hbm, ⟨22, _⟩ => ⟨S4096x32x32, .f32⟩
  | .hbm, ⟨23, _⟩ => ⟨S4096x32x32, .f32⟩
  | .hbm, ⟨24, _⟩ => ⟨S4096x32x32, .f32⟩
  | .hbm, ⟨25, _⟩ => ⟨S_, .f32⟩
  | .hbm, ⟨26, _⟩ => ⟨S4096x32, .f32⟩
  | .hbm, ⟨27, _⟩ => ⟨S4096x32x1, .f32⟩
  | .hbm, ⟨28, _⟩ => ⟨S4096x32x32, .f32⟩
  | .hbm, ⟨29, _⟩ => ⟨S4096x32x32, .f32⟩
  | .hbm, ⟨30, _⟩ => ⟨S4096x256x32, .f32⟩
  | .hbm, ⟨31, _⟩ => ⟨S32x4096x256, .f32⟩
  | _, _ => ⟨S32x4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_0 : Ref sig .tc := ⟨.hbm, 16, rfl⟩
abbrev main_v10 : Ref sig .tc := ⟨.hbm, 17, rfl⟩
abbrev main_cst_1 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_2 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩

abbrev nD : Nat := 1
abbrev τ : Topo := Topo.v7x

variable {F : FTy → Type} [FloatOps F]

class Facts₀ : Prop where
  transposes_S32x256x4096_S4096x32x256_2_0_1 : S32x256x4096.Transposes [2, 0, 1] S4096x32x256
  bcast_S_S4096x32x32 : S_.BroadcastsInDim S4096x32x32 (![] : Fin 0 → Fin S4096x32x32.rank)
  reducesTo_S4096x32x32_S4096x32_d2 : S4096x32x32.ReducesTo [2] S4096x32
  h_S_ : 0 < S_.numel
  bcast_S_S4096x32 : S_.BroadcastsInDim S4096x32 (![] : Fin 0 → Fin S4096x32.rank)
  bcast_S4096x32_S4096x32x1_0_1 : S4096x32.BroadcastsInDim S4096x32x1 (![0, 1] : Fin 2 → Fin S4096x32x1.rank)
  bcast_S4096x32x1_S4096x32x32_0_1_2 : S4096x32x1.BroadcastsInDim S4096x32x32 (![0, 1, 2] : Fin 3 → Fin S4096x32x32.rank)
  transposes_S4096x256x32_S32x4096x256_2_0_1 : S4096x256x32.Transposes [2, 0, 1] S32x4096x256
  dot_S32x256x256_S32x4096x256_S32x256x4096_1_2_2_1_0_0_wf : DotDims.WF S32x256x256 S32x4096x256 S32x256x4096 [1] [2] [2] [1] [0] [0]
  dot_S4096x32x256_S4096x32x256_S4096x32x32_2_2_1_1_0_0_wf : DotDims.WF S4096x32x256 S4096x32x256 S4096x32x32 [2] [2] [1] [1] [0] [0]
  dot_S4096x32x256_S4096x32x32_S4096x256x32_1_2_2_1_0_0_wf : DotDims.WF S4096x32x256 S4096x32x32 S4096x256x32 [1] [2] [2] [1] [0] [0]

variable [Facts₀]

def dot_S32x256x256_S32x4096x256_S32x256x4096_1_2_2_1_0_0 : DotDims S32x256x256 S32x4096x256 S32x256x4096 where
  lhsContracting := [1]
  rhsContracting := [2]
  lhsNonContracting := [2]
  rhsNonContracting := [1]
  lhsBatch := [0]
  rhsBatch := [0]
  wf := dot_S32x256x256_S32x4096x256_S32x256x4096_1_2_2_1_0_0_wf
def dot_S4096x32x256_S4096x32x256_S4096x32x32_2_2_1_1_0_0 : DotDims S4096x32x256 S4096x32x256 S4096x32x32 where
  lhsContracting := [2]
  rhsContracting := [2]
  lhsNonContracting := [1]
  rhsNonContracting := [1]
  lhsBatch := [0]
  rhsBatch := [0]
  wf := dot_S4096x32x256_S4096x32x256_S4096x32x32_2_2_1_1_0_0_wf
def dot_S4096x32x256_S4096x32x32_S4096x256x32_1_2_2_1_0_0 : DotDims S4096x32x256 S4096x32x32 S4096x256x32 where
  lhsContracting := [1]
  rhsContracting := [2]
  lhsNonContracting := [2]
  rhsNonContracting := [1]
  lhsBatch := [0]
  rhsBatch := [0]
  wf := dot_S4096x32x256_S4096x32x32_S4096x256x32_1_2_2_1_0_0_wf

class Facts : Prop extends Facts₀ where

variable [Facts]
-- ==== Proof.Spec.lean ====
/-
  Per-slot projected attention, as one function of the five argument arrays.

  For a batch row `B`, query slot `n` and output feature `o`:
    query n a  = Σ_k  Wq n k a · q n B k          (each slot has its own 256×256 projection)
    key   m a  = Σ_k  Wk m k a · k m B k
    value m o  = Σ_k  Wv m k o · k m B k
    s m        = (Σ_a query n a · key m a) · (1/16)
    p m        = exp (s m − max_m' s m') / Σ_m' exp (s m' − max_m'' s m'')
    out n B o  = Σ_m value m o · p m
  over the extended reals, with the maximum taken from −∞ upward.  Every batch row is computed from that row of
  `q` and `k` alone, which is why a tiling of the batch axis does not change the result.

  The three scalar laws at the end are the only places where two spellings of the same number meet:
  a quotient by √256 is the product with 1/16; a maximum with −∞ of a maximum that already started
  from −∞ is that maximum; zero plus a sum is the sum.
-/
import Idealize.ShloMosaic.PureOps.Ideal
import Idealize.ShloMosaic.PureOps.Ideal.Laws
import Idealize.ShloMosaic.Lib.ValueIdx

noncomputable section

namespace Cert.SlotAttention

open Idealize.ShloMosaic Idealize.ShloMosaic.ValueIdx

/-- The word `0xFF800000`: −∞. -/
abbrev negInf : EReal := Ideal.ofBits .f32 0xFF800000#32
/-- The word `0x3D800000`: 1/16, the reciprocal of √256. -/
abbrev invTemp : EReal := Ideal.ofBits .f32 0x3D800000#32

/-- One slot's linear projection of one row: `Σ_k w k a · x k`. -/
def proj (w : Fin 256 → Fin 256 → EReal) (x : Fin 256 → EReal) (a : Fin 256) : EReal :=
  ∑ k : Fin 256, w k a * x k

/-- The inner product of query slot `n` with key slot `m`. -/
def logit (Q K : Fin 32 → Fin 256 → EReal) (n m : Fin 32) : EReal :=
  ∑ a : Fin 256, Q n a * K m a

/-- The largest of 32 scores, starting from −∞. -/
def rowMax (s : Fin 32 → EReal) : EReal :=
  (Finset.univ : Finset (Fin 32)).fold max negInf s

/-- A score shifted by the row's maximum, exponentiated. -/
def expo (s : Fin 32 → EReal) (m : Fin 32) : EReal :=
  Ideal.exp (s m - rowMax s)

/-- The softmax weight of key slot `m`. -/
def soft (s : Fin 32 → EReal) (m : Fin 32) : EReal :=
  Ideal.div (expo s m) (∑ m' : Fin 32, expo s m')

/-- The weighted mix of the value slots. -/
def mix (V : Fin 32 → Fin 256 → EReal) (p : Fin 32 → EReal) (o : Fin 256) : EReal :=
  ∑ m : Fin 32, V m o * p m

/-- One batch row of the attention: from that row of `q` (`xq`) and of `k` (`xk`) and the three weight tensors. -/
def row (xq xk : Fin 32 → Fin 256 → EReal) (wq wk wv : Fin 32 → Fin 256 → Fin 256 → EReal)
    (n : Fin 32) (o : Fin 256) : EReal :=
  mix (fun m => proj (wv m) (xk m))
    (soft fun m => logit (fun n' => proj (wq n') (xq n')) (fun m' => proj (wk m') (xk m')) n m * invTemp) o

/-- The whole result array: entry `(n, B, o)` is row `B`'s attention at `(n, o)`. -/
def G (x0 x1 : (⟨3, ![32, 4096, 256]⟩ : Shape).Idx → EReal) (x2 x3 x4 : (⟨3, ![32, 256, 256]⟩ : Shape).Idx → EReal) :
    (⟨3, ![32, 4096, 256]⟩ : Shape).Idx → EReal := fun i =>
  row (fun n k => x0 (ix3 n (i 1) k)) (fun m k => x1 (ix3 m (i 1) k))
    (fun n k a => x2 (ix3 n k a)) (fun m k a => x3 (ix3 m k a)) (fun m k o => x4 (ix3 m k o)) (i 0) (i 2)

/-! ## The scalar laws -/

/-- `256.0` denotes the real 256. -/
theorem ofBits_256 : Ideal.ofBits .f32 0x43800000#32 = ((256 : ℝ) : EReal) := by
  simp [Ideal.ofBits, Ideal.ieee, -EReal.coe_mul]; norm_num

/-- `0.0625` denotes the real 1/16. -/
theorem invTemp_eq : invTemp = ((1 / 16 : ℝ) : EReal) := by
  simp [invTemp, Ideal.ofBits, Ideal.ieee, -EReal.coe_mul]; norm_num

theorem sqrt_256 : Real.sqrt 256 = 16 := by
  rw [show (256 : ℝ) = 16 ^ 2 by norm_num]; exact Real.sqrt_sq (by norm_num)

/-- Dividing by √256 is multiplying by 1/16, at the infinities too. -/
theorem div_sqrt_256 (x : EReal) : Ideal.div x (Ideal.sqrt (Ideal.ofBits .f32 0x43800000#32)) = x * invTemp := by
  rw [ofBits_256, Ideal.sqrt_coe, if_neg (by norm_num), sqrt_256, Ideal.div_coe (by norm_num), invTemp_eq]

/-- A maximum that started from `b` is at least `b`, so taking the maximum with `b` again changes nothing. -/
theorem max_fold_max {ι : Type*} (s : Finset ι) (b : EReal) (f : ι → EReal) : max b (s.fold max b f) = s.fold max b f :=
  max_eq_right ((Finset.le_fold_max (c := b)).mpr (Or.inl le_rfl))

end Cert.SlotAttention

end
-- ==== Proof.KernelRow.lean ====
/-
  One grid point's body computes the per-slot attention of the 64 batch rows of its block.

  The body is read as a composition of six steps — the query projection, the fused key/value projection, the scaled
  scores, the shifted exponentials, the normalised weights and the mix — and each step is read at explicit coordinates:
  a matrix product as the sum over its contracted coordinate, a transpose as a renaming of coordinates, a slice of the
  fused projection as its first or last 256 columns, a lane maximum or lane sum (kept as a unit axis and broadcast back)
  as the fold or sum over the 32 key slots.  Changes of float format are the identity on the extended reals.  Row `b`
  of the result depends on row `b` of the two input blocks only.
-/
import proofs.«108386_j2903397892926_2_alg».proof.Proof.Gen.KernelIdeal.Skeleton
import proofs.«108386_j2903397892926_2_alg».proof.Proof.Spec
import Idealize.ShloMosaic.Lib.Pipeline.Value
import Idealize.ShloMosaic.Lib.ValueIdx
import Idealize.ShloMosaic.PureOps.Ideal.Laws

noncomputable section

namespace Cert.SlotAttention.Body

open Cert.KernelIdeal Cert.KernelIdeal.Gen Idealize.ShloMosaic Idealize.ShloMosaic.ValueIdx
open Cert.SlotAttention

/-- Column `a` of the key half and column `o` of the value half of the fused 512-column weight. -/
abbrev lo (a : Fin 256) : Fin 512 := ⟨a.val, by omega⟩
abbrev hi (o : Fin 256) : Fin 512 := ⟨256 + o.val, by omega⟩

/-! ## The four matrix products at an index

Each product contracts one coordinate.  At an output index the two operand indices are read off coordinate by
coordinate: a batch or free coordinate is the output's, and the contracted one is the summation variable. -/

/-- The query projection's product, weights `[n, k, a]` against the block `[n, b, k]`: entry `(n, a, b)` is
    `Σ_k L[n,k,a] · R[n,b,k]`. -/
theorem mmQ_apply (L : FVec Ideal S32x256x256 .bf16) (R : FVec Ideal S32x64x256 .bf16) (n : Fin 32) (a : Fin 256) (b : Fin 64) :
    matmul dot_S32x256x256_S32x64x256_S32x256x64_1_2_2_1_0_0 none L R (constant (F := Ideal) S32x256x64 .f32 0x00000000#32) (ix3 n a b)
      = ∑ k : Fin 256, L (ix3 n k a) * R (ix3 n b k) := by
  simp only [matmul]
  rw [Ideal.matmul_constant_zero_apply,
    ← Equiv.sum_comp (contrEquiv1 dot_S32x256x256_S32x64x256_S32x256x64_1_2_2_1_0_0 256 rfl rfl).symm]
  refine Finset.sum_congr rfl fun k _ => ?_
  have hk := contrEquiv1_symm_val dot_S32x256x256_S32x64x256_S32x256x64_1_2_2_1_0_0 256 rfl rfl k
  have el : dot_S32x256x256_S32x64x256_S32x256x64_1_2_2_1_0_0.lhsIdx (ix3 n a b)
      ((contrEquiv1 dot_S32x256x256_S32x64x256_S32x256x64_1_2_2_1_0_0 256 rfl rfl).symm k) = ix3 n k a :=
    funext fun d => Fin.ext (by
      match d with
      | ⟨0, _⟩ => rfl
      | ⟨1, _⟩ => exact (dot_S32x256x256_S32x64x256_S32x256x64_1_2_2_1_0_0.lhsIdx_val_of_single rfl _ _).trans hk
      | ⟨2, _⟩ => rfl)
  have er : dot_S32x256x256_S32x64x256_S32x256x64_1_2_2_1_0_0.rhsIdx (ix3 n a b)
      ((contrEquiv1 dot_S32x256x256_S32x64x256_S32x256x64_1_2_2_1_0_0 256 rfl rfl).symm k) = ix3 n b k :=
    funext fun d => Fin.ext (by
      match d with
      | ⟨0, _⟩ => rfl
      | ⟨1, _⟩ => rfl
      | ⟨2, _⟩ => exact (dot_S32x256x256_S32x64x256_S32x256x64_1_2_2_1_0_0.rhsIdx_val_of_single rfl _ _).trans hk)
  rw [el, er]

/-- The fused key/value projection's product, weights `[m, k, c]` against the block `[m, b, k]`: entry `(m, c, b)` is
    `Σ_k L[m,k,c] · R[m,b,k]`. -/
theorem mmK_apply (L : FVec Ideal S32x256x512 .bf16) (R : FVec Ideal S32x64x256 .bf16) (m : Fin 32) (c : Fin 512) (b : Fin 64) :
    matmul dot_S32x256x512_S32x64x256_S32x512x64_1_2_2_1_0_0 none L R (constant (F := Ideal) S32x512x64 .f32 0x00000000#32) (ix3 m c b)
      = ∑ k : Fin 256, L (ix3 m k c) * R (ix3 m b k) := by
  simp only [matmul]
  rw [Ideal.matmul_constant_zero_apply,
    ← Equiv.sum_comp (contrEquiv1 dot_S32x256x512_S32x64x256_S32x512x64_1_2_2_1_0_0 256 rfl rfl).symm]
  refine Finset.sum_congr rfl fun k _ => ?_
  have hk := contrEquiv1_symm_val dot_S32x256x512_S32x64x256_S32x512x64_1_2_2_1_0_0 256 rfl rfl k
  have el : dot_S32x256x512_S32x64x256_S32x512x64_1_2_2_1_0_0.lhsIdx (ix3 m c b)
      ((contrEquiv1 dot_S32x256x512_S32x64x256_S32x512x64_1_2_2_1_0_0 256 rfl rfl).symm k) = ix3 m k c :=
    funext fun d => Fin.ext (by
      match d with
      | ⟨0, _⟩ => rfl
      | ⟨1, _⟩ => exact (dot_S32x256x512_S32x64x256_S32x512x64_1_2_2_1_0_0.lhsIdx_val_of_single rfl _ _).trans hk
      | ⟨2, _⟩ => rfl)
  have er : dot_S32x256x512_S32x64x256_S32x512x64_1_2_2_1_0_0.rhsIdx (ix3 m c b)
      ((contrEquiv1 dot_S32x256x512_S32x64x256_S32x512x64_1_2_2_1_0_0 256 rfl rfl).symm k) = ix3 m b k :=
    funext fun d => Fin.ext (by
      match d with
      | ⟨0, _⟩ => rfl
      | ⟨1, _⟩ => rfl
      | ⟨2, _⟩ => exact (dot_S32x256x512_S32x64x256_S32x512x64_1_2_2_1_0_0.rhsIdx_val_of_single rfl _ _).trans hk)
  rw [el, er]

/-- The scores' product, queries `[b, n, a]` against keys `[b, m, a]`: entry `(b, n, m)` is `Σ_a L[b,n,a] · R[b,m,a]`. -/
theorem mmL_apply (L R : FVec Ideal S64x32x256 .bf16) (b : Fin 64) (n m : Fin 32) :
    matmul dot_S64x32x256_S64x32x256_S64x32x32_2_2_1_1_0_0 none L R (constant (F := Ideal) S64x32x32 .f32 0x00000000#32) (ix3 b n m)
      = ∑ k : Fin 256, L (ix3 b n k) * R (ix3 b m k) := by
  simp only [matmul]
  rw [Ideal.matmul_constant_zero_apply,
    ← Equiv.sum_comp (contrEquiv1 dot_S64x32x256_S64x32x256_S64x32x32_2_2_1_1_0_0 256 rfl rfl).symm]
  refine Finset.sum_congr rfl fun k _ => ?_
  have hk := contrEquiv1_symm_val dot_S64x32x256_S64x32x256_S64x32x32_2_2_1_1_0_0 256 rfl rfl k
  have el : dot_S64x32x256_S64x32x256_S64x32x32_2_2_1_1_0_0.lhsIdx (ix3 b n m)
      ((contrEquiv1 dot_S64x32x256_S64x32x256_S64x32x32_2_2_1_1_0_0 256 rfl rfl).symm k) = ix3 b n k :=
    funext fun d => Fin.ext (by
      match d with
      | ⟨0, _⟩ => rfl
      | ⟨1, _⟩ => rfl
      | ⟨2, _⟩ => exact (dot_S64x32x256_S64x32x256_S64x32x32_2_2_1_1_0_0.lhsIdx_val_of_single rfl _ _).trans hk)
  have er : dot_S64x32x256_S64x32x256_S64x32x32_2_2_1_1_0_0.rhsIdx (ix3 b n m)
      ((contrEquiv1 dot_S64x32x256_S64x32x256_S64x32x32_2_2_1_1_0_0 256 rfl rfl).symm k) = ix3 b m k :=
    funext fun d => Fin.ext (by
      match d with
      | ⟨0, _⟩ => rfl
      | ⟨1, _⟩ => rfl
      | ⟨2, _⟩ => exact (dot_S64x32x256_S64x32x256_S64x32x32_2_2_1_1_0_0.rhsIdx_val_of_single rfl _ _).trans hk)
  rw [el, er]

/-- The mix's product, values `[b, m, o]` against weights `[b, n, m]`: entry `(b, o, n)` is `Σ_m L[b,m,o] · R[b,n,m]`. -/
theorem mmO_apply (L : FVec Ideal S64x32x256 .bf16) (R : FVec Ideal S64x32x32 .bf16) (b : Fin 64) (o : Fin 256) (n : Fin 32) :
    matmul dot_S64x32x256_S64x32x32_S64x256x32_1_2_2_1_0_0 none L R (constant (F := Ideal) S64x256x32 .f32 0x00000000#32) (ix3 b o n)
      = ∑ k : Fin 32, L (ix3 b k o) * R (ix3 b n k) := by
  simp only [matmul]
  rw [Ideal.matmul_constant_zero_apply,
    ← Equiv.sum_comp (contrEquiv1 dot_S64x32x256_S64x32x32_S64x256x32_1_2_2_1_0_0 32 rfl rfl).symm]
  refine Finset.sum_congr rfl fun k _ => ?_
  have hk := contrEquiv1_symm_val dot_S64x32x256_S64x32x32_S64x256x32_1_2_2_1_0_0 32 rfl rfl k
  have el : dot_S64x32x256_S64x32x32_S64x256x32_1_2_2_1_0_0.lhsIdx (ix3 b o n)
      ((contrEquiv1 dot_S64x32x256_S64x32x32_S64x256x32_1_2_2_1_0_0 32 rfl rfl).symm k) = ix3 b k o :=
    funext fun d => Fin.ext (by
      match d with
      | ⟨0, _⟩ => rfl
      | ⟨1, _⟩ => exact (dot_S64x32x256_S64x32x32_S64x256x32_1_2_2_1_0_0.lhsIdx_val_of_single rfl _ _).trans hk
      | ⟨2, _⟩ => rfl)
  have er : dot_S64x32x256_S64x32x32_S64x256x32_1_2_2_1_0_0.rhsIdx (ix3 b o n)
      ((contrEquiv1 dot_S64x32x256_S64x32x32_S64x256x32_1_2_2_1_0_0 32 rfl rfl).symm k) = ix3 b n k :=
    funext fun d => Fin.ext (by
      match d with
      | ⟨0, _⟩ => rfl
      | ⟨1, _⟩ => rfl
      | ⟨2, _⟩ => exact (dot_S64x32x256_S64x32x32_S64x256x32_1_2_2_1_0_0.rhsIdx_val_of_single rfl _ _).trans hk)
  rw [el, er]

/-! ## Transposes, slices, and the kept unit axis -/

section Layout
variable {α : Type}

/-- `[n, a, b] → [b, n, a]`. -/
theorem trQ_apply (y : S32x256x64.Idx → α) (b : Fin 64) (n : Fin 32) (a : Fin 256) :
    transpose S64x32x256 [2, 0, 1] y transposes_S32x256x64_p2_0_1_S64x32x256 (ix3 b n a) = y (ix3 n a b) :=
  transpose_apply [2, 0, 1] y transposes_S32x256x64_p2_0_1_S64x32x256 (ix3 b n a) (ix3 n a b) (fun d => match d with
    | ⟨0, _⟩ => rfl
    | ⟨1, _⟩ => rfl
    | ⟨2, _⟩ => rfl)

/-- `[m, c, b] → [b, m, c]`. -/
theorem trK_apply (y : S32x512x64.Idx → α) (b : Fin 64) (m : Fin 32) (c : Fin 512) :
    transpose S64x32x512 [2, 0, 1] y transposes_S32x512x64_p2_0_1_S64x32x512 (ix3 b m c) = y (ix3 m c b) :=
  transpose_apply [2, 0, 1] y transposes_S32x512x64_p2_0_1_S64x32x512 (ix3 b m c) (ix3 m c b) (fun d => match d with
    | ⟨0, _⟩ => rfl
    | ⟨1, _⟩ => rfl
    | ⟨2, _⟩ => rfl)

/-- `[b, o, n] → [n, b, o]`. -/
theorem trO_apply (y : S64x256x32.Idx → α) (n : Fin 32) (b : Fin 64) (o : Fin 256) :
    transpose S32x64x256 [2, 0, 1] y transposes_S64x256x32_p2_0_1_S32x64x256 (ix3 n b o) = y (ix3 b o n) :=
  transpose_apply [2, 0, 1] y transposes_S64x256x32_p2_0_1_S32x64x256 (ix3 n b o) (ix3 b o n) (fun d => match d with
    | ⟨0, _⟩ => rfl
    | ⟨1, _⟩ => rfl
    | ⟨2, _⟩ => rfl)

/-- The first 256 columns. -/
theorem sliceLo_apply (y : S64x32x512.Idx → α) (b : Fin 64) (m : Fin 32) (a : Fin 256) :
    extractStridedSlice S64x32x256 ![0, 0, 0] y slices_S64x32x512_o0_0_0_S64x32x256 (ix3 b m a) = y (ix3 b m (lo a)) :=
  extractStridedSlice_apply ![0, 0, 0] y slices_S64x32x512_o0_0_0_S64x32x256 (ix3 b m a) (ix3 b m (lo a)) (fun d => match d with
    | ⟨0, _⟩ => (Nat.zero_add _).symm
    | ⟨1, _⟩ => (Nat.zero_add _).symm
    | ⟨2, _⟩ => (Nat.zero_add _).symm)

/-- The last 256 columns. -/
theorem sliceHi_apply (y : S64x32x512.Idx → α) (b : Fin 64) (m : Fin 32) (o : Fin 256) :
    extractStridedSlice S64x32x256 ![0, 0, 256] y slices_S64x32x512_o0_0_256_S64x32x256 (ix3 b m o) = y (ix3 b m (hi o)) :=
  extractStridedSlice_apply ![0, 0, 256] y slices_S64x32x512_o0_0_256_S64x32x256 (ix3 b m o) (ix3 b m (hi o)) (fun d => match d with
    | ⟨0, _⟩ => (Nat.zero_add _).symm
    | ⟨1, _⟩ => (Nat.zero_add _).symm
    | ⟨2, _⟩ => rfl)

/-- A per-`(b, n)` value kept as a unit axis and broadcast over the 32 key slots is that value at every slot. -/
theorem keep_apply (r : S64x32.Idx → α) (b : Fin 64) (n m : Fin 32) :
    broadcastTo S64x32x32 (shapeCast S64x32x1 r shapeCasts_S64x32_S64x32x1) broadcasts_S64x32x1_S64x32x32 (ix3 b n m) = r (ix2 b n) := by
  refine (broadcastTo_apply _ broadcasts_S64x32x1_S64x32x32 (ix3 b n m) (ix3 b n (0 : Fin 1)) (fun d => match d with
    | ⟨0, _⟩ => by show b.val = if (64 : Nat) = 1 then 0 else b.val; rw [if_neg (by decide)]
    | ⟨1, _⟩ => by show n.val = if (32 : Nat) = 1 then 0 else n.val; rw [if_neg (by decide)]
    | ⟨2, _⟩ => by show 0 = if (1 : Nat) = 1 then 0 else m.val; rw [if_pos rfl])).trans ?_
  refine shapeCast_apply r shapeCasts_S64x32_S64x32x1 (ix3 b n (0 : Fin 1)) (ix2 b n) ?_
  rw [Shape.rowMajor_val_two, Shape.rowMajor_val_three]
  show b.val * 32 + n.val = (b.val * 32 + n.val) * 1 + 0
  omega

end Layout

/-! ## The two lane reductions -/

/-- The lane maximum at `(b, n)`: the fold of `max` from −∞ over the 32 key slots. -/
theorem laneMax_apply (s : FVec Ideal S64x32x32 .f32) (b : Fin 64) (n : Fin 32) :
    multiReduction .maximumf [2] S64x32 s 0xFF800000#32 reduces_S64x32x32_S64x32 (.inl rfl) rfl (ix2 b n)
      = rowMax fun m => s (ix3 b n m) := by
  refine (Ideal.multiReduction_maximumf_single s 0xFF800000#32 reduces_S64x32x32_S64x32 (.inl rfl) rfl (ix2 b n)).trans ?_
  have e : (s ∘ reduces_S64x32x32_S64x32.lift (ix2 b n)) = fun m : Fin 32 => s (ix3 b n m) :=
    funext fun (m : Fin 32) => congrArg s (funext fun d => match d with
      | ⟨0, _⟩ => rfl
      | ⟨1, _⟩ => rfl
      | ⟨2, _⟩ => rfl)
  exact congrArg (fun f : Fin 32 → EReal => (Finset.univ : Finset (Fin 32)).fold max negInf f) e

/-- The lane sum at `(b, n)`: the sum over the 32 key slots. -/
theorem laneSum_apply (e : FVec Ideal S64x32x32 .f32) (b : Fin 64) (n : Fin 32) :
    multiReduction .add [2] S64x32 e 0x00000000#32 reduces_S64x32x32_S64x32 (.inl rfl) rfl (ix2 b n)
      = ∑ m : Fin 32, e (ix3 b n m) := by
  refine (Ideal.multiReduction_add_single e 0x00000000#32 reduces_S64x32x32_S64x32 (.inl rfl) rfl (ix2 b n)).trans ?_
  refine Finset.sum_congr rfl fun (m : Fin 32) _ => congrArg e (funext fun d => match d with
    | ⟨0, _⟩ => rfl
    | ⟨1, _⟩ => rfl
    | ⟨2, _⟩ => rfl)

/-! ## The body's six steps -/

/-- The projected query slots of a block, laid out `[b, n, a]`. -/
def queryOf (v0 : FVec Ideal S32x64x256 .f32) (v4 : FVec Ideal S32x256x256 .bf16) : FVec Ideal S64x32x256 .f32 :=
  transpose S64x32x256 [2, 0, 1]
    (matmul dot_S32x256x256_S32x64x256_S32x256x64_1_2_2_1_0_0 none (shapeCast S32x256x256 v4 shapeCasts_S32x256x256_S32x256x256)
      (truncf .bf16 v0 bitsLt_bf16_f32) (constant (F := Ideal) S32x256x64 .f32 0x00000000#32))
    transposes_S32x256x64_p2_0_1_S64x32x256

/-- The projected key slots (columns 0–255) and value slots (columns 256–511) of a block, laid out `[b, m, c]`. -/
def keyValOf (v2 : FVec Ideal S32x64x256 .f32) (v6 : FVec Ideal S32x256x512 .bf16) : FVec Ideal S64x32x512 .f32 :=
  transpose S64x32x512 [2, 0, 1]
    (matmul dot_S32x256x512_S32x64x256_S32x512x64_1_2_2_1_0_0 none (shapeCast S32x256x512 v6 shapeCasts_S32x256x512_S32x256x512)
      (truncf .bf16 v2 bitsLt_bf16_f32) (constant (F := Ideal) S32x512x64 .f32 0x00000000#32))
    transposes_S32x512x64_p2_0_1_S64x32x512

/-- The scaled scores `[b, n, m]`. -/
def scoresOf (q : FVec Ideal S64x32x256 .f32) (kv : FVec Ideal S64x32x512 .f32) : FVec Ideal S64x32x32 .f32 :=
  mulf (matmul dot_S64x32x256_S64x32x256_S64x32x32_2_2_1_1_0_0 none (truncf .bf16 q bitsLt_bf16_f32)
      (truncf .bf16 (extractStridedSlice S64x32x256 ![0, 0, 0] kv slices_S64x32x512_o0_0_0_S64x32x256) bitsLt_bf16_f32)
      (constant (F := Ideal) S64x32x32 .f32 0x00000000#32))
    (broadcast S64x32x32 (Scalar.ofBits (F := Ideal) .f32 0x3D800000#32))

/-- The scores less their row maximum, exponentiated. -/
def expsOf (s : FVec Ideal S64x32x32 .f32) : FVec Ideal S64x32x32 .f32 :=
  exp (subf s (broadcastTo S64x32x32 (shapeCast S64x32x1
    (multiReduction .maximumf [2] S64x32 s 0xFF800000#32 reduces_S64x32x32_S64x32 (.inl rfl) rfl)
    shapeCasts_S64x32_S64x32x1) broadcasts_S64x32x1_S64x32x32))

/-- The exponentials over their row sum. -/
def weightsOf (e : FVec Ideal S64x32x32 .f32) : FVec Ideal S64x32x32 .f32 :=
  divf e (broadcastTo S64x32x32 (shapeCast S64x32x1
    (multiReduction .add [2] S64x32 e 0x00000000#32 reduces_S64x32x32_S64x32 (.inl rfl) rfl)
    shapeCasts_S64x32_S64x32x1) broadcasts_S64x32x1_S64x32x32)

/-- The value slots mixed by the weights, laid out `[n, b, o]`. -/
def mixOf (kv : FVec Ideal S64x32x512 .f32) (p : FVec Ideal S64x32x32 .f32) : FVec Ideal S32x64x256 .f32 :=
  transpose S32x64x256 [2, 0, 1]
    (matmul dot_S64x32x256_S64x32x32_S64x256x32_1_2_2_1_0_0 none
      (truncf .bf16 (extractStridedSlice S64x32x256 ![0, 0, 256] kv slices_S64x32x512_o0_0_256_S64x32x256) bitsLt_bf16_f32)
      (truncf .bf16 p bitsLt_bf16_f32) (constant (F := Ideal) S64x256x32 .f32 0x00000000#32))
    transposes_S64x256x32_p2_0_1_S32x64x256

/-- The body's arithmetic is these six steps composed. -/
theorem pay_eq (v0 v2 : Vec Ideal S32x64x256 .f32) (v4 : Vec Ideal S32x256x256 .bf16) (v6 : Vec Ideal S32x256x512 .bf16) :
    k0_pay1 (F := Ideal) v0 v2 v4 v6
      = mixOf (keyValOf v2 v6) (weightsOf (expsOf (scoresOf (queryOf v0 v4) (keyValOf v2 v6)))) := rfl

/-! ## Each step at an index -/

theorem query_at (v0 : FVec Ideal S32x64x256 .f32) (v4 : FVec Ideal S32x256x256 .bf16) (b : Fin 64) (n : Fin 32) (a : Fin 256) :
    queryOf v0 v4 (ix3 b n a) = proj (fun k a' => v4 (ix3 n k a')) (fun k => v0 (ix3 n b k)) a := by
  unfold queryOf
  refine (trQ_apply _ b n a).trans ?_
  refine (mmQ_apply _ _ n a b).trans ?_
  rw [shapeCast_self]
  rfl

theorem keyVal_at (v2 : FVec Ideal S32x64x256 .f32) (v6 : FVec Ideal S32x256x512 .bf16) (b : Fin 64) (m : Fin 32) (c : Fin 512) :
    keyValOf v2 v6 (ix3 b m c) = ∑ k : Fin 256, v6 (ix3 m k c) * v2 (ix3 m b k) := by
  unfold keyValOf
  refine (trK_apply _ b m c).trans ?_
  refine (mmK_apply _ _ m c b).trans ?_
  rw [shapeCast_self]
  rfl

theorem key_at (v2 : FVec Ideal S32x64x256 .f32) (v6 : FVec Ideal S32x256x512 .bf16) (b : Fin 64) (m : Fin 32) (a : Fin 256) :
    extractStridedSlice S64x32x256 ![0, 0, 0] (keyValOf v2 v6) slices_S64x32x512_o0_0_0_S64x32x256 (ix3 b m a)
      = proj (fun k a' => v6 (ix3 m k (lo a'))) (fun k => v2 (ix3 m b k)) a :=
  (sliceLo_apply _ b m a).trans (keyVal_at v2 v6 b m (lo a))

theorem value_at (v2 : FVec Ideal S32x64x256 .f32) (v6 : FVec Ideal S32x256x512 .bf16) (b : Fin 64) (m : Fin 32) (o : Fin 256) :
    extractStridedSlice S64x32x256 ![0, 0, 256] (keyValOf v2 v6) slices_S64x32x512_o0_0_256_S64x32x256 (ix3 b m o)
      = proj (fun k o' => v6 (ix3 m k (hi o'))) (fun k => v2 (ix3 m b k)) o :=
  (sliceHi_apply _ b m o).trans (keyVal_at v2 v6 b m (hi o))

theorem scores_at (q : FVec Ideal S64x32x256 .f32) (kv : FVec Ideal S64x32x512 .f32) (b : Fin 64) (n m : Fin 32) :
    scoresOf q kv (ix3 b n m)
      = logit (fun n' a => q (ix3 b n' a))
          (fun m' a => extractStridedSlice S64x32x256 ![0, 0, 0] kv slices_S64x32x512_o0_0_0_S64x32x256 (ix3 b m' a)) n m * invTemp := by
  unfold scoresOf
  exact congrArg (· * invTemp) (mmL_apply _ _ b n m)

theorem exps_at (s : FVec Ideal S64x32x32 .f32) (b : Fin 64) (n m : Fin 32) :
    expsOf s (ix3 b n m) = expo (fun m' => s (ix3 b n m')) m := by
  unfold expsOf
  exact congrArg (fun t => Ideal.exp (s (ix3 b n m) - t)) ((keep_apply _ b n m).trans (laneMax_apply s b n))

theorem weights_at (e : FVec Ideal S64x32x32 .f32) (b : Fin 64) (n m : Fin 32) :
    weightsOf e (ix3 b n m) = Ideal.div (e (ix3 b n m)) (∑ m' : Fin 32, e (ix3 b n m')) := by
  unfold weightsOf
  exact congrArg (Ideal.div (e (ix3 b n m))) ((keep_apply _ b n m).trans (laneSum_apply e b n))

theorem soft_at (s : FVec Ideal S64x32x32 .f32) (b : Fin 64) (n m : Fin 32) :
    weightsOf (expsOf s) (ix3 b n m) = soft (fun m' => s (ix3 b n m')) m := by
  rw [weights_at, exps_at]
  unfold soft
  exact congrArg (Ideal.div _) (Finset.sum_congr rfl fun m' _ => exps_at s b n m')

theorem mix_at (kv : FVec Ideal S64x32x512 .f32) (p : FVec Ideal S64x32x32 .f32) (n : Fin 32) (b : Fin 64) (o : Fin 256) :
    mixOf kv p (ix3 n b o)
      = mix (fun m o' => extractStridedSlice S64x32x256 ![0, 0, 256] kv slices_S64x32x512_o0_0_256_S64x32x256 (ix3 b m o'))
          (fun m => p (ix3 b n m)) o := by
  unfold mixOf
  refine (trO_apply _ n b o).trans ?_
  exact mmO_apply _ _ b o n

/-! ## The body at an index -/

/-- Entry `(n, b, o)` of what the body stores is the attention of batch row `b` of the two input blocks, with the key
    weights the first 256 columns and the value weights the last 256 columns of the fused weight. -/
theorem pay_at (v0 v2 : Vec Ideal S32x64x256 .f32) (v4 : Vec Ideal S32x256x256 .bf16) (v6 : Vec Ideal S32x256x512 .bf16)
    (n : Fin 32) (b : Fin 64) (o : Fin 256) :
    k0_pay1 (F := Ideal) v0 v2 v4 v6 (ix3 n b o)
      = row (fun n' k => v0 (ix3 n' b k)) (fun m k => v2 (ix3 m b k)) (fun n' k a => v4 (ix3 n' k a))
          (fun m k a => v6 (ix3 m k (lo a))) (fun m k o' => v6 (ix3 m k (hi o'))) n o := by
  have hV : (fun (m : Fin 32) (o' : Fin 256) => extractStridedSlice S64x32x256 ![0, 0, 256] (keyValOf v2 v6) slices_S64x32x512_o0_0_256_S64x32x256 (ix3 b m o'))
      = fun m => proj (fun k o' => v6 (ix3 m k (hi o'))) (fun k => v2 (ix3 m b k)) :=
    funext fun m => funext fun o' => value_at v2 v6 b m o'
  have hS : (fun m' : Fin 32 => scoresOf (queryOf v0 v4) (keyValOf v2 v6) (ix3 b n m'))
      = fun m => logit (fun n' => proj (fun k a => v4 (ix3 n' k a)) (fun k => v0 (ix3 n' b k)))
          (fun m' => proj (fun k a => v6 (ix3 m' k (lo a))) (fun k => v2 (ix3 m' b k))) n m * invTemp :=
    funext fun m' => (scores_at _ _ b n m').trans (congrArg (· * invTemp) (by
      unfold logit
      exact Finset.sum_congr rfl fun a _ => congrArg₂ (· * ·) (query_at v0 v4 b n a) (key_at v2 v6 b m' a)))
  have hP : (fun m : Fin 32 => weightsOf (expsOf (scoresOf (queryOf v0 v4) (keyValOf v2 v6))) (ix3 b n m))
      = soft fun m' => scoresOf (queryOf v0 v4) (keyValOf v2 v6) (ix3 b n m') :=
    funext fun m => soft_at _ b n m
  rw [pay_eq]
  exact (mix_at _ _ n b o).trans (congrArg₂ (fun V p => mix V p o) hV (hP.trans (congrArg soft hS)))

end Cert.SlotAttention.Body

end
-- ==== Proof.Blocks.lean ====
/-
  From blocks to the whole array.

  The grid has 64 points; point `t` reads rows `64·t … 64·t + 63` of `q` and of `k` (all 32 slots, all 256 features),
  the whole query weight and the whole fused key/value weight, and writes the same rows of the result.  The fused weight
  is the key weight and the value weight side by side along the last axis, so its first 256 columns are the key
  weight's and its last 256 the value weight's.  Since row `B` of the result is computed from row `B` of `q` and `k`
  alone, what point `t` writes is block `t` of the whole-array function `G`, and the 64 blocks tile the batch axis: the
  block holding row `B` is point `B / 64`.
-/
import proofs.«108386_j2903397892926_2_alg».proof.Proof.Gen.KernelIdeal.Value
import proofs.«108386_j2903397892926_2_alg».proof.Proof.KernelRow
import Idealize.ShloMosaic.Lib.StableHlo.Run

noncomputable section

namespace Cert.SlotAttention.Whole

open Cert.KernelIdeal Cert.KernelIdeal.Gen Idealize.ShloMosaic Idealize.ShloMosaic.TcCoe Idealize.SL.Sem
open Idealize.ShloMosaic.ValueIdx Idealize.ShloMosaic.StableHlo
open Idealize.ShloMosaic.Pipeline (Dat)
open Cert.SlotAttention Cert.SlotAttention.Body

variable (m : (ℓ : Loc nD τ sig) → Buf (Elt Ideal) ℓ) (ρ : Dev nD → PrngReg)

/-! ## Where each block sits -/

theorem hz : (![0, 0, 0] : Fin 3 → Nat) = fun _ => 0 := funext fun a => by fin_cases a <;> rfl

/-- The index maps over the grid: the two row-tiled inputs and the output move along the batch axis with the point;
    the two weights stay put. -/
theorem idx_facts : ∀ t : Fin cfg0.N,
    (win0_0.index t (0 : Fin 3) = 0 ∧ win0_0.index t (1 : Fin 3) = t.val ∧ win0_0.index t (2 : Fin 3) = 0)
    ∧ (win0_1.index t (0 : Fin 3) = 0 ∧ win0_1.index t (1 : Fin 3) = t.val ∧ win0_1.index t (2 : Fin 3) = 0)
    ∧ (win0_2.index t (0 : Fin 3) = 0 ∧ win0_2.index t (1 : Fin 3) = 0 ∧ win0_2.index t (2 : Fin 3) = 0)
    ∧ (win0_3.index t (0 : Fin 3) = 0 ∧ win0_3.index t (1 : Fin 3) = 0 ∧ win0_3.index t (2 : Fin 3) = 0)
    ∧ (win0_4.index t (0 : Fin 3) = 0 ∧ win0_4.index t (1 : Fin 3) = t.val ∧ win0_4.index t (2 : Fin 3) = 0) :=
  (by decide +kernel : ∀ t : Fin grid0.N, _)

theorem point_lt (t : Fin cfg0.N) : t.val < 64 := by
  have h := t.isLt
  have hN : cfg0.N = 64 := N_0
  omega

/-- Row `b` of point `t`'s block is row `64·t + b` of the array. -/
def rowOf (t : Fin cfg0.N) (b : Fin 64) : Fin 4096 := ⟨64 * t.val + b.val, by have := point_lt t; have := b.isLt; omega⟩

theorem emb0 (t : Fin cfg0.N) (n : Fin 32) (b : Fin 64) (k : Fin 256) :
    ((cfg0.win 0).blk t).view.emb (ix3 n b k) = ix3 n (rowOf t b) k := by
  obtain ⟨⟨e0, e1, e2⟩, -⟩ := idx_facts t
  funext a; apply Fin.ext
  match a with
  | ⟨0, _⟩ => show win0_0.index t (0 : Fin 3) * 32 + 1 * n.val = n.val; omega
  | ⟨1, _⟩ => show win0_0.index t (1 : Fin 3) * 64 + 1 * b.val = 64 * t.val + b.val; omega
  | ⟨2, _⟩ => show win0_0.index t (2 : Fin 3) * 256 + 1 * k.val = k.val; omega

theorem emb1 (t : Fin cfg0.N) (n : Fin 32) (b : Fin 64) (k : Fin 256) :
    ((cfg0.win 1).blk t).view.emb (ix3 n b k) = ix3 n (rowOf t b) k := by
  obtain ⟨-, ⟨e0, e1, e2⟩, -⟩ := idx_facts t
  funext a; apply Fin.ext
  match a with
  | ⟨0, _⟩ => show win0_1.index t (0 : Fin 3) * 32 + 1 * n.val = n.val; omega
  | ⟨1, _⟩ => show win0_1.index t (1 : Fin 3) * 64 + 1 * b.val = 64 * t.val + b.val; omega
  | ⟨2, _⟩ => show win0_1.index t (2 : Fin 3) * 256 + 1 * k.val = k.val; omega

theorem emb2 (t : Fin cfg0.N) (n : Fin 32) (k a : Fin 256) :
    ((cfg0.win 2).blk t).view.emb (ix3 n k a) = ix3 n k a := by
  obtain ⟨-, -, ⟨e0, e1, e2⟩, -⟩ := idx_facts t
  funext d; apply Fin.ext
  match d with
  | ⟨0, _⟩ => show win0_2.index t (0 : Fin 3) * 32 + 1 * n.val = n.val; omega
  | ⟨1, _⟩ => show win0_2.index t (1 : Fin 3) * 256 + 1 * k.val = k.val; omega
  | ⟨2, _⟩ => show win0_2.index t (2 : Fin 3) * 256 + 1 * a.val = a.val; omega

theorem emb3 (t : Fin cfg0.N) (n : Fin 32) (k : Fin 256) (c' : Fin 512) :
    ((cfg0.win 3).blk t).view.emb (ix3 n k c') = ix3 n k c' := by
  obtain ⟨-, -, -, ⟨e0, e1, e2⟩, -⟩ := idx_facts t
  funext d; apply Fin.ext
  match d with
  | ⟨0, _⟩ => show win0_3.index t (0 : Fin 3) * 32 + 1 * n.val = n.val; omega
  | ⟨1, _⟩ => show win0_3.index t (1 : Fin 3) * 256 + 1 * k.val = k.val; omega
  | ⟨2, _⟩ => show win0_3.index t (2 : Fin 3) * 512 + 1 * c'.val = c'.val; omega

theorem emb4 (t : Fin cfg0.N) (n : Fin 32) (b : Fin 64) (o : Fin 256) :
    ((cfg0.win 4).blk t).view.emb (ix3 n b o) = ix3 n (rowOf t b) o := by
  obtain ⟨-, -, -, -, e0, e1, e2⟩ := idx_facts t
  funext a; apply Fin.ext
  match a with
  | ⟨0, _⟩ => show win0_4.index t (0 : Fin 3) * 32 + 1 * n.val = n.val; omega
  | ⟨1, _⟩ => show win0_4.index t (1 : Fin 3) * 64 + 1 * b.val = 64 * t.val + b.val; omega
  | ⟨2, _⟩ => show win0_4.index t (2 : Fin 3) * 256 + 1 * o.val = o.val; omega

/-! ## The two weights as the region finds them -/

/-- The query weight, re-typed: entry by entry the argument. -/
theorem qw_eq (c : Dev nD) :
    @Eq (FVec Ideal S32x256x256 .bf16) (V m c main_v0)
      (truncf (F := Ideal) .bf16 (m ((c : Thread nD τ).loc main_arg2) : FVec Ideal S32x256x256 .f32) bitsLt_bf16_f32) := by
  dsimp only [V, hostOps0]; after_results

theorem qw_at (c : Dev nD) (i : S32x256x256.Idx) :
    (V m c main_v0 : S32x256x256.Idx → EReal) i = m ((c : Thread nD τ).loc main_arg2) i := by
  rw [qw_eq]; rfl

/-- The fused weight: the key weight and the value weight side by side. -/
theorem kvw_eq (c : Dev nD) :
    @Eq (FVec Ideal S32x256x512 .bf16) (V m c main_v2)
      (truncf (F := Ideal) .bf16 (concatenate S32x256x512 2
          [⟨S32x256x256, (m ((c : Thread nD τ).loc main_arg3) : FVec Ideal S32x256x256 .f32)⟩,
            ⟨S32x256x256, (m ((c : Thread nD τ).loc main_arg4) : FVec Ideal S32x256x256 .f32)⟩]
          concatenates_S32x256x256_S32x256x256_S32x256x512_d2 : FVec Ideal S32x256x512 .f32) bitsLt_bf16_f32) := by
  dsimp only [V, hostOps0]; after_results

/-- Its first 256 columns are the key weight's. -/
theorem kvw_lo (c : Dev nD) (mm : Fin 32) (k a : Fin 256) :
    (V m c main_v2 : S32x256x512.Idx → EReal) (ix3 mm k (lo a)) = m ((c : Thread nD τ).loc main_arg3) (ix3 mm k a) := by
  rw [kvw_eq]
  exact concatenate_pair_apply_left 2 _ _ concatenates_S32x256x256_S32x256x256_S32x256x512_d2 (ix3 mm k (lo a)) rfl (ix3 mm k a)
    (fun d => match d with
      | ⟨0, _⟩ => rfl
      | ⟨1, _⟩ => rfl
      | ⟨2, _⟩ => rfl)

/-- Its last 256 columns are the value weight's. -/
theorem kvw_hi (c : Dev nD) (mm : Fin 32) (k o : Fin 256) :
    (V m c main_v2 : S32x256x512.Idx → EReal) (ix3 mm k (hi o)) = m ((c : Thread nD τ).loc main_arg4) (ix3 mm k o) := by
  rw [kvw_eq]
  exact concatenate_pair_apply_right 2 _ _ concatenates_S32x256x256_S32x256x256_S32x256x512_d2 (ix3 mm k (hi o)) rfl rfl (ix3 mm k o)
    (fun d hd => match d, hd with
      | ⟨0, _⟩, _ => rfl
      | ⟨1, _⟩, _ => rfl
      | ⟨2, _⟩, hd => absurd rfl hd)
    (by show o.val + 256 = 256 + o.val; omega)

/-! ## Each input block at an index -/

theorem blk0_at (c : Dev nD) (t : Fin cfg0.N) (n : Fin 32) (b : Fin 64) (k : Fin 256) :
    iblk m c 0 t (ix3 n b k) = m ((c : Thread nD τ).loc main_arg0) (ix3 n (rowOf t b) k) := by
  show V m c main_arg0 (((cfg0.win 0).blk t).view.emb (ix3 n b k)) = _
  rw [V_main_arg0, emb0]

theorem blk1_at (c : Dev nD) (t : Fin cfg0.N) (n : Fin 32) (b : Fin 64) (k : Fin 256) :
    iblk m c 1 t (ix3 n b k) = m ((c : Thread nD τ).loc main_arg1) (ix3 n (rowOf t b) k) := by
  show V m c main_arg1 (((cfg0.win 1).blk t).view.emb (ix3 n b k)) = _
  rw [V_main_arg1, emb1]

theorem blk2_at (c : Dev nD) (t : Fin cfg0.N) (n : Fin 32) (k a : Fin 256) :
    iblk m c 2 t (ix3 n k a) = m ((c : Thread nD τ).loc main_arg2) (ix3 n k a) := by
  show (V m c main_v0 : S32x256x256.Idx → EReal) (((cfg0.win 2).blk t).view.emb (ix3 n k a)) = _
  rw [emb2, qw_at]

theorem blk3_lo (c : Dev nD) (t : Fin cfg0.N) (mm : Fin 32) (k a : Fin 256) :
    iblk m c 3 t (ix3 mm k (lo a)) = m ((c : Thread nD τ).loc main_arg3) (ix3 mm k a) := by
  show (V m c main_v2 : S32x256x512.Idx → EReal) (((cfg0.win 3).blk t).view.emb (ix3 mm k (lo a))) = _
  rw [emb3, kvw_lo]

theorem blk3_hi (c : Dev nD) (t : Fin cfg0.N) (mm : Fin 32) (k o : Fin 256) :
    iblk m c 3 t (ix3 mm k (hi o)) = m ((c : Thread nD τ).loc main_arg4) (ix3 mm k o) := by
  show (V m c main_v2 : S32x256x512.Idx → EReal) (((cfg0.win 3).blk t).view.emb (ix3 mm k (hi o))) = _
  rw [emb3, kvw_hi]

/-! ## What a point writes back -/

theorem row_congr {xq xq' xk xk' : Fin 32 → Fin 256 → EReal} {wq wq' wk wk' wv wv' : Fin 32 → Fin 256 → Fin 256 → EReal}
    (h0 : xq = xq') (h1 : xk = xk') (h2 : wq = wq') (h3 : wk = wk') (h4 : wv = wv') (n : Fin 32) (o : Fin 256) :
    row xq xk wq wk wv n o = row xq' xk' wq' wk' wv' n o := by
  subst h0 h1 h2 h3 h4; rfl

/-- The whole-array attention of the five arguments as launched. -/
abbrev result (c : Dev nD) : S32x4096x256.Idx → EReal :=
  G (m ((c : Thread nD τ).loc main_arg0)) (m ((c : Thread nD τ).loc main_arg1)) (m ((c : Thread nD τ).loc main_arg2))
    (m ((c : Thread nD τ).loc main_arg3)) (m ((c : Thread nD τ).loc main_arg4))

/-- Point `t` writes block `t` of the whole-array attention. -/
theorem flushed_eq (c : Dev nD) (t : Fin cfg0.N) :
    (dats m 0 c).flushed 4 t = ((cfg0.win 4).blk t).view.read (Elt Ideal) (result m c) := by
  rw [Cert.KernelIdeal.Value.flushed4]
  unfold out0_4
  rw [View.canon_unit_zero hz]
  simp only [View.ld_unit_zero (S := S32x64x256) hz, View.ld_unit_zero (S := S32x256x256) hz, View.ld_unit_zero (S := S32x256x512) hz]
  refine funext fun (j : S32x64x256.Idx) => ?_
  obtain ⟨n, b, o, rfl⟩ : ∃ (n : Fin 32) (b : Fin 64) (o : Fin 256), j = ix3 n b o := ⟨j 0, j 1, j 2, eq_ix3 j⟩
  show k0_pay1 (F := Ideal) (iblk m c 0 t) (iblk m c 1 t) (iblk m c 2 t) (iblk m c 3 t) (ix3 n b o)
    = result m c (((cfg0.win 4).blk t).view.emb (ix3 n b o))
  have h0 : (fun (n' : Fin 32) (k : Fin 256) => iblk m c 0 t (ix3 n' b k))
      = fun n' k => m ((c : Thread nD τ).loc main_arg0) (ix3 n' (rowOf t b) k) :=
    funext fun n' => funext fun k => blk0_at m c t n' b k
  have h1 : (fun (m' : Fin 32) (k : Fin 256) => iblk m c 1 t (ix3 m' b k))
      = fun m' k => m ((c : Thread nD τ).loc main_arg1) (ix3 m' (rowOf t b) k) :=
    funext fun m' => funext fun k => blk1_at m c t m' b k
  have h2 : (fun (n' : Fin 32) (k a : Fin 256) => iblk m c 2 t (ix3 n' k a))
      = fun n' k a => m ((c : Thread nD τ).loc main_arg2) (ix3 n' k a) :=
    funext fun n' => funext fun k => funext fun a => blk2_at m c t n' k a
  have h3 : (fun (m' : Fin 32) (k a : Fin 256) => iblk m c 3 t (ix3 m' k (lo a)))
      = fun m' k a => m ((c : Thread nD τ).loc main_arg3) (ix3 m' k a) :=
    funext fun m' => funext fun k => funext fun a => blk3_lo m c t m' k a
  have h4 : (fun (m' : Fin 32) (k o' : Fin 256) => iblk m c 3 t (ix3 m' k (hi o')))
      = fun m' k o' => m ((c : Thread nD τ).loc main_arg4) (ix3 m' k o') :=
    funext fun m' => funext fun k => funext fun o' => blk3_hi m c t m' k o'
  exact (pay_at (iblk m c 0 t) (iblk m c 1 t) (iblk m c 2 t) (iblk m c 3 t) n b o).trans
    ((row_congr h0 h1 h2 h3 h4 n o).trans (congrArg (result m c) (emb4 t n b o)).symm)

/-! ## The cover -/

/-- An index is in point `t`'s block iff each coordinate is in the block's range on its axis. -/
theorem mem_blk (t : Fin cfg0.N) (i : S32x4096x256.Idx) :
    i ∈ ((cfg0.win 4).blk t).view.set ↔ ∀ a : Fin 3, win0_4.index t a * S32x64x256.size a ≤ (i a).val ∧ (i a).val < win0_4.index t a * S32x64x256.size a + S32x64x256.size a := by
  show i ∈ ((View.whole main_v3).slice (win0_4.rect t)).set ↔ _
  rw [View.set_slice_whole, Rect.mem_set_unit]
  exact Iff.rfl

/-- Every index of the result is in some point's block: row `B` is in the block of point `B / 64`. -/
theorem cover (i : S32x4096x256.Idx) : ∃ t : Fin cfg0.N, (cfg0.win 4).flush t = true ∧ i ∈ ((cfg0.win 4).blk t).view.set := by
  have hi0 : (i 0).val < 32 := (i 0).isLt
  have hi1 : (i 1).val < 4096 := (i 1).isLt
  have hi2 : (i 2).val < 256 := (i 2).isLt
  obtain ⟨t, ht⟩ : ∃ t : Fin cfg0.N, t.val = (i 1).val / 64 :=
    ⟨⟨(i 1).val / 64, by have hN : cfg0.N = 64 := N_0; omega⟩, rfl⟩
  obtain ⟨-, -, -, -, e0, e1, e2⟩ := idx_facts t
  refine ⟨t, flush0_4 t, ?_⟩
  rw [mem_blk]
  intro a
  match a with
  | ⟨0, _⟩ => show win0_4.index t (0 : Fin 3) * 32 ≤ (i 0).val ∧ (i 0).val < win0_4.index t (0 : Fin 3) * 32 + 32; omega
  | ⟨1, _⟩ => show win0_4.index t (1 : Fin 3) * 64 ≤ (i 1).val ∧ (i 1).val < win0_4.index t (1 : Fin 3) * 64 + 64; omega
  | ⟨2, _⟩ => show win0_4.index t (2 : Fin 3) * 256 ≤ (i 2).val ∧ (i 2).val < win0_4.index t (2 : Fin 3) * 256 + 256; omega

/-! ## The array after the run, and the run -/

/-- The result array ends holding the whole-array attention of the arguments. -/
theorem final (c : Dev nD) : (dats m 0 c).arrAt 4 cfg0.N = result m c :=
  (dats m 0 c).arrAt_eq_of_cover 4 (result m c) (fun t _ => flushed_eq m c t) cover

/-- Every weakly fair execution of the kernel's program terminates with the result at `G` of the arguments and the
    arguments unchanged. -/
theorem run : θ_run defs (onTc (τ := τ) (main (F := Ideal))) ⟨m, fun _ => 0, ρ⟩ fun r => ∀ c : Dev nD,
      r.2.mem ((c : Thread nD τ).loc main_v3) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩) (Cert.KernelIdeal.Value.run_blocks m ρ)

end Cert.SlotAttention.Whole

end
-- ==== Proof.RefIsSpec.lean ====
/-
  The reference computes the per-slot attention `G`.

  Its twenty-seven host operations are read one at a time at explicit coordinates `(B, n, m)` / `(B, n, a)`: the three
  batched products are the slot projections of row `B`, the fourth the 32×32 inner products, the quotient by √256 the
  scaling by 1/16, the two reductions the row maximum (taken once more against −∞, which changes nothing) and the
  row sum (started from zero), and the last product the mix of the value slots.  Each transpose only renames the
  coordinates.
-/
import proofs.«108386_j2903397892926_2_alg».proof.Proof.Gen.ReferenceIdeal.Read
import proofs.«108386_j2903397892926_2_alg».proof.Proof.Spec

noncomputable section

namespace Cert.SlotAttention.Ref

open Cert.ReferenceIdeal Cert.ReferenceIdeal.Gen Cert.ReferenceIdeal.Read Idealize.ShloMosaic Idealize.ShloMosaic.ValueIdx
open Cert.SlotAttention

local macro "idx3" : tactic => `(tactic| (funext a; match a with | ⟨0, _⟩ => rfl | ⟨1, _⟩ => rfl | ⟨2, _⟩ => rfl))
local macro "idx2" : tactic => `(tactic| (funext a; match a with | ⟨0, _⟩ => rfl | ⟨1, _⟩ => rfl))

variable (x0 x1 : (⟨S32x4096x256, .f32⟩ : BufTy).Contents (Elt Ideal)) (x2 x3 x4 : (⟨S32x256x256, .f32⟩ : BufTy).Contents (Elt Ideal))

/-- Row `B`'s projected query, key and value slots, and the scaled scores of query slot `n`. -/
abbrev Q (B : Fin 4096) : Fin 32 → Fin 256 → EReal := fun n' => proj (fun k a => x2 (ix3 n' k a)) (fun k => x0 (ix3 n' B k))
abbrev K (B : Fin 4096) : Fin 32 → Fin 256 → EReal := fun m' => proj (fun k a => x3 (ix3 m' k a)) (fun k => x1 (ix3 m' B k))
abbrev W (B : Fin 4096) : Fin 32 → Fin 256 → EReal := fun m' => proj (fun k o => x4 (ix3 m' k o)) (fun k => x1 (ix3 m' B k))
abbrev S (B : Fin 4096) (n : Fin 32) : Fin 32 → EReal := fun m => logit (Q x0 x2 B) (K x1 x3 B) n m * invTemp

/-- A batched product `w[n,k,a] · x[n,B,k]` summed over `k`, transposed to `(B, n, a)`: slot `n`'s projection of row `B`. -/
theorem proj_at (x : (⟨S32x4096x256, .f32⟩ : BufTy).Contents (Elt Ideal)) (w : (⟨S32x256x256, .f32⟩ : BufTy).Contents (Elt Ideal))
    (B : Fin 4096) (n : Fin 32) (a : Fin 256) :
    val_main_v2 (F := Ideal) x w (ix3 B n a) = proj (fun k a' => w (ix3 n k a')) (fun k => x (ix3 n B k)) a := by
  rw [val_main_v2_apply, val_main_v1_apply]
  unfold proj
  refine Finset.sum_congr rfl fun k _ => ?_
  have e1 : lidx_main_v1 (idx_main_v2 (ix3 B n a)) k = ix3 n k a := by idx3
  have e2 : ridx_main_v1 (idx_main_v2 (ix3 B n a)) k = ix3 n B k := by idx3
  rw [e1, e2]

/-- The inner products of row `B`'s query and key slots. -/
theorem logit_at (B : Fin 4096) (n m : Fin 32) :
    val_main_v7 (F := Ideal) x0 x1 x2 x3 (ix3 B n m) = logit (Q x0 x2 B) (K x1 x3 B) n m := by
  rw [val_main_v7_apply]
  unfold logit
  refine Finset.sum_congr rfl fun a _ => ?_
  have e1 : lidx_main_v7 (ix3 B n m) a = ix3 B n a := by idx3
  have e2 : ridx_main_v7 (ix3 B n m) a = ix3 B m a := by idx3
  rw [e1, e2, proj_at, show val_main_v4 (F := Ideal) x1 x3 = val_main_v2 (F := Ideal) x1 x3 from rfl, proj_at]

/-- Divided by √256: scaled by 1/16. -/
theorem scaled_at (B : Fin 4096) (n m : Fin 32) :
    val_main_v9 (F := Ideal) x0 x1 x2 x3 (ix3 B n m) = S x0 x1 x2 x3 B n m := by
  rw [val_main_v9_apply, val_main_v8_apply, val_main_v0_apply, val_main_cst_apply, logit_at]
  exact div_sqrt_256 _

theorem red : S4096x32x32.Reduces [2] S4096x32 := by decide

/-- The row maximum: the host's reduction is the fold of `max` from −∞ over the 32 key slots; the further maximum with
    −∞ is absorbed. -/
theorem max_at (B : Fin 4096) (n : Fin 32) :
    val_main_v12 (F := Ideal) x0 x1 x2 x3 (ix2 B n) = rowMax (S x0 x1 x2 x3 B n) := by
  rw [val_main_v12_apply, val_main_v11_apply, val_main_cst_1_apply]
  unfold val_main_v10
  rw [Host.reduce_eq_fold_single FloatOps.maximumf _ _ reducesTo_S4096x32x32_S4096x32_d2 red h_S_ (ix2 B n), val_main_cst_0_apply]
  have e : (val_main_v9 (F := Ideal) x0 x1 x2 x3 ∘ red.lift (ix2 B n)) = S x0 x1 x2 x3 B n :=
    funext fun (m : Fin 32) => by
      show val_main_v9 (F := Ideal) x0 x1 x2 x3 (red.lift (ix2 B n) m) = _
      rw [show red.lift (ix2 B n) m = ix3 B n m from by idx3, scaled_at]
  rw [e]
  exact max_fold_max _ _ _

/-- A score less its row's maximum, exponentiated. -/
theorem expo_at (B : Fin 4096) (n m : Fin 32) :
    val_main_v16 (F := Ideal) x0 x1 x2 x3 (ix3 B n m) = expo (S x0 x1 x2 x3 B n) m := by
  rw [val_main_v16_apply, val_main_v15_apply, scaled_at, val_main_v14_apply, val_main_v13_apply,
    show idx_main_v13 (idx_main_v14 (ix3 B n m)) = ix2 B n from by idx2, max_at]
  rfl

/-- The row sum of the exponentials, started from zero. -/
theorem sum_at (B : Fin 4096) (n : Fin 32) :
    val_main_v17 (F := Ideal) x0 x1 x2 x3 (ix2 B n) = ∑ m : Fin 32, expo (S x0 x1 x2 x3 B n) m := by
  rw [val_main_v17_apply, val_main_cst_2_apply]
  show Ideal.ofBits .f32 0x00000000#32 + _ = _
  rw [Ideal.ofBits_zero_f32, zero_add]
  refine Finset.sum_congr rfl fun m _ => ?_
  rw [show idx_main_v17 (ix2 B n) m = ix3 B n m from by idx3, expo_at]

/-- The softmax weights. -/
theorem soft_at (B : Fin 4096) (n m : Fin 32) :
    val_main_v20 (F := Ideal) x0 x1 x2 x3 (ix3 B n m) = soft (S x0 x1 x2 x3 B n) m := by
  rw [val_main_v20_apply, expo_at, val_main_v19_apply, val_main_v18_apply,
    show idx_main_v18 (idx_main_v19 (ix3 B n m)) = ix2 B n from by idx2, sum_at]
  rfl

/-- The result at `(n, B, o)`: the value slots of row `B` mixed by query slot `n`'s weights. -/
theorem out_at (n : Fin 32) (B : Fin 4096) (o : Fin 256) :
    val_main_v22 (F := Ideal) x0 x1 x2 x3 x4 (ix3 n B o) = mix (W x1 x4 B) (soft (S x0 x1 x2 x3 B n)) o := by
  rw [val_main_v22_apply, val_main_v21_apply]
  unfold mix
  refine Finset.sum_congr rfl fun m _ => ?_
  have e1 : lidx_main_v21 (idx_main_v22 (ix3 n B o)) m = ix3 B m o := by idx3
  have e2 : ridx_main_v21 (idx_main_v22 (ix3 n B o)) m = ix3 B n m := by idx3
  rw [e1, e2, soft_at, show val_main_v6 (F := Ideal) x1 x4 = val_main_v2 (F := Ideal) x1 x4 from rfl, proj_at]

/-- The reference's result is `G` of its arguments. -/
theorem ref_eq : val_main_v22 (F := Ideal) x0 x1 x2 x3 x4 = G x0 x1 x2 x3 x4 := by
  funext i
  obtain ⟨n, B, o, rfl⟩ : ∃ (n : Fin 32) (B : Fin 4096) (o : Fin 256), i = ix3 n B o := ⟨i 0, i 1, i 2, eq_ix3 i⟩
  exact out_at x0 x1 x2 x3 x4 n B o

end Cert.SlotAttention.Ref

end
-- ==== Proof.lean ====
/-
  Per-slot projected attention: a tiled kernel against its one-shot reference, equal over the extended reals.

  Both programs compute, for every batch row `B`, query slot `n` and output feature `o`,
      out[n, B, o] = Σ_m value[B, m, o] · softmax_m ( (Σ_a query[B, n, a] · key[B, m, a]) / 16 ),
  where `query`, `key`, `value` are the per-slot 256×256 linear projections of row `B` of `q` and `k`, and the softmax
  is taken with the row maximum subtracted (the maximum started from −∞).

  They differ in four ways, none of which changes a value:
  · the kernel works on 64 batch rows at a time, over a grid of 64 points; each row's result depends on that row
    only, so the blocks are restrictions of one whole-array function and they tile the batch axis;
  · the kernel projects keys and values with one product against the two weights laid side by side and then takes
    the two halves; column by column that is the two separate products;
  · the kernel multiplies the scores by the constant 1/16 where the reference divides by √256; on every extended
    real the quotient by a non-zero real is the product with its reciprocal, and √256 = 16;
  · the reference takes the row maximum once more against −∞, which a maximum that started from −∞ already dominates.
  Changes of float format are the identity on the extended reals, and sums may be taken in any order.  No step uses
  distributivity or cancellation, so the finiteness of the inputs is never needed.

  The three frames are the generated ones (the reference's is its generated run with the result forgotten); the
  idealization rewrote nothing, so `preserves` is `True`.
-/
import proofs.«108386_j2903397892926_2_alg».proof.Defs
import proofs.«108386_j2903397892926_2_alg».proof.Proof.Gen.Kernel
import proofs.«108386_j2903397892926_2_alg».proof.Proof.Gen.Kernel.Skeleton
import proofs.«108386_j2903397892926_2_alg».proof.Proof.Gen.Kernel.Launch
import proofs.«108386_j2903397892926_2_alg».proof.Proof.Gen.Kernel.Points
import proofs.«108386_j2903397892926_2_alg».proof.Proof.Gen.Kernel.Frame
import proofs.«108386_j2903397892926_2_alg».proof.Proof.Gen.KernelIdeal
import proofs.«108386_j2903397892926_2_alg».proof.Proof.Gen.KernelIdeal.Skeleton
import proofs.«108386_j2903397892926_2_alg».proof.Proof.Gen.KernelIdeal.Launch
import proofs.«108386_j2903397892926_2_alg».proof.Proof.Gen.KernelIdeal.Points
import proofs.«108386_j2903397892926_2_alg».proof.Proof.Gen.KernelIdeal.Frame
import proofs.«108386_j2903397892926_2_alg».proof.Proof.Gen.ReferenceIdeal
import proofs.«108386_j2903397892926_2_alg».proof.Proof.Gen.Pre_finite_inputs
import proofs.«108386_j2903397892926_2_alg».proof.Proof.Gen.KernelIdeal.Value
import proofs.«108386_j2903397892926_2_alg».proof.Proof.Gen.ReferenceIdeal.Run
import proofs.«108386_j2903397892926_2_alg».proof.Proof.Gen.ReferenceIdeal.Read
import proofs.«108386_j2903397892926_2_alg».proof.Proof.Blocks
import proofs.«108386_j2903397892926_2_alg».proof.Proof.RefIsSpec
import Idealize.ShloMosaic.Adequacy
import Idealize.ShloMosaic.Init

noncomputable section

namespace Cert.Proof

open Idealize.ShloMosaic Idealize.SL.Sem

/-- The kernel as printed runs and leaves its arguments unchanged. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference runs and leaves its arguments unchanged: its run, with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the five arguments, the kernel's result array and the reference's are both the
    whole-array attention `G` of those arguments. -/
theorem algebraic : Cert.algebraic_KernelIdeal_ReferenceIdeal := by
  intro m ρ m' ρ' _ hagree
  refine ⟨fun c => Cert.SlotAttention.Whole.result m c, Cert.SlotAttention.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v22_eq, Cert.SlotAttention.Ref.ref_eq,
    (hagree c).1, (hagree c).2.1, (hagree c).2.2.1, (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
